-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S1600000x64 : Shape := ⟨2, ![1600000, 64]⟩
abbrev S100000x32 : Shape := ⟨2, ![100000, 32]⟩
abbrev S5000x32 : Shape := ⟨2, ![5000, 32]⟩
abbrev S1x32 : Shape := ⟨2, ![1, 32]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S32, .f32⟩
  | .local _ .vmem, ⟨16, _⟩ => ⟨S5000x32, .f32⟩
  | .local _ .vmem, ⟨17, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S_, .f32⟩
  | .hbm, ⟨76, _⟩ => ⟨S_, .f32⟩
  | .hbm, ⟨77, _⟩ => ⟨S100000x32, .f32⟩
  | .hbm, ⟨78, _⟩ => ⟨S100000x32, .i1⟩
  | .hbm, ⟨79, _⟩ => ⟨S_, .f32⟩
  | .hbm, ⟨80, _⟩ => ⟨S100000x32, .f32⟩
  | .hbm, ⟨81, _⟩ => ⟨S100000x32, .f32⟩
  | .hbm, ⟨82, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v50 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibDenseLayer.lean ====
/-
  One dense layer with a leaky activation, read at an index on the extended reals.

  The layer is `act (A · Wl + X · Wr + b)`: two matrix products added, a bias row added to every row, and then
  `act v = v` where `v ≥ z` and `v · s` elsewhere. Written as a vector program (two matrix products into the zero
  accumulator, the bias cast to a row and repeated along the rows, the product with the splat slope on the right) and as a
  host program (two `dot_general`s, the bias broadcast to a row and then along the rows, the product with the broadcast
  slope on the left) it is ONE function of the five arrays: entry `(p, q)` is
  `act (Σ k, A (p, k) · Wl (k, q) + Σ k, X (p, k) · Wr (k, q) + b q)`. The two programs differ only in the order of the
  two factors of the activation's product, and the product of extended reals is commutative; no entry needs to be finite.
-/
import proofs.«151401_j36850819400182_1_alg».proof.Proof.LibHostRead
import Idealize.ShloMosaic.Lib.ValueLayout

noncomputable section

namespace Cert.LibDenseLayer

open Idealize.ShloMosaic Idealize.ShloMosaic.ValueIdx Cert.LibHostRead

/-- The activation at threshold `z` and slope `s`: `v` itself where `v ≥ z`, `v · s` elsewhere. -/
def act (z s v : EReal) : EReal := Scalar.select (FloatOps.cmpf (F := Ideal) (φ := .f32) .oge v z) v (v * s)

/-- The layer as one function of its five arrays: entry `(p, q)` is the activation of row `p` of `A` against column `q`
    of `Wl`, plus row `p` of `X` against column `q` of `Wr`, plus the bias at `q`. -/
def layer {N K M : ℕ} (z s : EReal) (A X : (⟨2, ![N, K]⟩ : Shape).Idx → EReal) (Wl Wr : (⟨2, ![K, M]⟩ : Shape).Idx → EReal)
    (b : (⟨1, ![M]⟩ : Shape).Idx → EReal) : (⟨2, ![N, M]⟩ : Shape).Idx → EReal :=
  fun i => act z s ((∑ k : Fin K, A (ix2 (i 0 : Fin N) k) * Wl (ix2 k (i 1 : Fin M)))
    + (∑ k : Fin K, X (ix2 (i 0 : Fin N) k) * Wr (ix2 k (i 1 : Fin M))) + b (ix1 (i 1 : Fin M)))

theorem layer_apply {N K M : ℕ} (z s : EReal) (A X : (⟨2, ![N, K]⟩ : Shape).Idx → EReal) (Wl Wr : (⟨2, ![K, M]⟩ : Shape).Idx → EReal)
    (b : (⟨1, ![M]⟩ : Shape).Idx → EReal) (p : Fin N) (q : Fin M) :
    layer z s A X Wl Wr b (ix2 p q)
      = act z s ((∑ k : Fin K, A (ix2 p k) * Wl (ix2 k q)) + (∑ k : Fin K, X (ix2 p k) * Wr (ix2 k q)) + b (ix1 q)) := rfl

/-! ## The vector form -/

/-- Before the activation, as a vector program: the two matrix products into the zero accumulator added, and the bias,
    cast to one row and repeated along the rows, added to that. -/
def vecPre {N K M : ℕ} {φ₁ φ₂ : FTy} (d : DotDims ⟨2, ![N, K]⟩ ⟨2, ![K, M]⟩ ⟨2, ![N, M]⟩)
    (hc : (⟨1, ![M]⟩ : Shape).ShapeCasts ⟨2, ![1, M]⟩) (hb : (⟨2, ![1, M]⟩ : Shape).Broadcasts ⟨2, ![N, M]⟩)
    (A X : FVec Ideal ⟨2, ![N, K]⟩ φ₁) (Wl Wr : FVec Ideal ⟨2, ![K, M]⟩ φ₂) (b : FVec Ideal ⟨1, ![M]⟩ .f32) : FVec Ideal ⟨2, ![N, M]⟩ .f32 :=
  addf (addf (matmul d none A Wl (constant ⟨2, ![N, M]⟩ .f32 0x00000000#32)) (matmul d none X Wr (constant ⟨2, ![N, M]⟩ .f32 0x00000000#32)))
    (broadcastTo ⟨2, ![N, M]⟩ (shapeCast ⟨2, ![1, M]⟩ b hc) hb)

/-- The layer as a vector program: the comparison with the splat threshold selects the value or its product with the
    splat slope. -/
def vecLayer {N K M : ℕ} {φ₁ φ₂ : FTy} (d : DotDims ⟨2, ![N, K]⟩ ⟨2, ![K, M]⟩ ⟨2, ![N, M]⟩)
    (hc : (⟨1, ![M]⟩ : Shape).ShapeCasts ⟨2, ![1, M]⟩) (hb : (⟨2, ![1, M]⟩ : Shape).Broadcasts ⟨2, ![N, M]⟩) (zb sb : BitVec 32)
    (A X : FVec Ideal ⟨2, ![N, K]⟩ φ₁) (Wl Wr : FVec Ideal ⟨2, ![K, M]⟩ φ₂) (b : FVec Ideal ⟨1, ![M]⟩ .f32) : FVec Ideal ⟨2, ![N, M]⟩ .f32 :=
  select (cmpf .oge (vecPre d hc hb A X Wl Wr b) (broadcast ⟨2, ![N, M]⟩ (Scalar.ofBits (F := Ideal) .f32 zb))) (vecPre d hc hb A X Wl Wr b)
    (mulf (vecPre d hc hb A X Wl Wr b) (broadcast ⟨2, ![N, M]⟩ (Scalar.ofBits (F := Ideal) .f32 sb)))

theorem vecPre_apply {N K M : ℕ} {φ₁ φ₂ : FTy} (d : DotDims ⟨2, ![N, K]⟩ ⟨2, ![K, M]⟩ ⟨2, ![N, M]⟩) (hd : PlainDot d)
    (hc : (⟨1, ![M]⟩ : Shape).ShapeCasts ⟨2, ![1, M]⟩) (hb : (⟨2, ![1, M]⟩ : Shape).Broadcasts ⟨2, ![N, M]⟩)
    (A X : FVec Ideal ⟨2, ![N, K]⟩ φ₁) (Wl Wr : FVec Ideal ⟨2, ![K, M]⟩ φ₂) (b : FVec Ideal ⟨1, ![M]⟩ .f32) (p : Fin N) (q : Fin M) :
    vecPre d hc hb A X Wl Wr b (ix2 p q)
      = (∑ k : Fin K, A (ix2 p k) * Wl (ix2 k q)) + (∑ k : Fin K, X (ix2 p k) * Wr (ix2 k q)) + b (ix1 q) := by
  unfold vecPre
  simp only [matmul]
  rw [addf_apply, addf_apply, matmul_plain_zero_apply d hd, matmul_plain_zero_apply d hd, broadcastTo_1b_ab_apply,
    shapeCast_a_1a_apply]

/-- The vector program computes the layer. -/
theorem vecLayer_eq {N K M : ℕ} {φ₁ φ₂ : FTy} (d : DotDims ⟨2, ![N, K]⟩ ⟨2, ![K, M]⟩ ⟨2, ![N, M]⟩) (hd : PlainDot d)
    (hc : (⟨1, ![M]⟩ : Shape).ShapeCasts ⟨2, ![1, M]⟩) (hb : (⟨2, ![1, M]⟩ : Shape).Broadcasts ⟨2, ![N, M]⟩) (zb sb : BitVec 32)
    (A X : FVec Ideal ⟨2, ![N, K]⟩ φ₁) (Wl Wr : FVec Ideal ⟨2, ![K, M]⟩ φ₂) (b : FVec Ideal ⟨1, ![M]⟩ .f32) :
    vecLayer d hc hb zb sb A X Wl Wr b = layer (Ideal.ofBits .f32 zb) (Ideal.ofBits .f32 sb) A X Wl Wr b := by
  funext i
  obtain ⟨p, q, rfl⟩ : ∃ (p : Fin N) (q : Fin M), i = ix2 p q := ⟨i 0, i 1, eq_ix2 i⟩
  unfold vecLayer
  rw [select_apply, cmpf_apply, mulf_apply, broadcast_apply, broadcast_apply, vecPre_apply d hd, layer_apply]
  rfl

/-! ## The host form -/

/-- Before the activation, as a host program: the two `dot_general`s added, and the bias, broadcast to one row and then
    along the rows, added to that. -/
def hostPre {N K M : ℕ} (d : DotDims ⟨2, ![N, K]⟩ ⟨2, ![K, M]⟩ ⟨2, ![N, M]⟩)
    (hb1 : (⟨1, ![M]⟩ : Shape).BroadcastsInDim ⟨2, ![1, M]⟩ ![1]) (hb2 : (⟨2, ![1, M]⟩ : Shape).BroadcastsInDim ⟨2, ![N, M]⟩ ![0, 1])
    (A X : FVec Ideal ⟨2, ![N, K]⟩ .f32) (Wl Wr : FVec Ideal ⟨2, ![K, M]⟩ .f32) (b : FVec Ideal ⟨1, ![M]⟩ .f32) : FVec Ideal ⟨2, ![N, M]⟩ .f32 :=
  addf (addf (Host.dotGeneral d none A Wl) (Host.dotGeneral d none X Wr))
    (broadcastInDim ⟨2, ![N, M]⟩ ![0, 1] hb2 (broadcastInDim ⟨2, ![1, M]⟩ ![1] hb1 b))

/-- The layer as a host program: the comparison with the broadcast threshold selects the value or the product of the
    broadcast slope with it. -/
def hostLayer {N K M : ℕ} (d : DotDims ⟨2, ![N, K]⟩ ⟨2, ![K, M]⟩ ⟨2, ![N, M]⟩)
    (hb1 : (⟨1, ![M]⟩ : Shape).BroadcastsInDim ⟨2, ![1, M]⟩ ![1]) (hb2 : (⟨2, ![1, M]⟩ : Shape).BroadcastsInDim ⟨2, ![N, M]⟩ ![0, 1])
    (hs : (⟨0, ![]⟩ : Shape).BroadcastsInDim ⟨2, ![N, M]⟩ ![]) (zb sb : BitVec 32)
    (A X : FVec Ideal ⟨2, ![N, K]⟩ .f32) (Wl Wr : FVec Ideal ⟨2, ![K, M]⟩ .f32) (b : FVec Ideal ⟨1, ![M]⟩ .f32) : FVec Ideal ⟨2, ![N, M]⟩ .f32 :=
  select (cmpf .oge (hostPre d hb1 hb2 A X Wl Wr b) (broadcastInDim ⟨2, ![N, M]⟩ ![] hs (constant (F := Ideal) ⟨0, ![]⟩ .f32 zb)))
    (hostPre d hb1 hb2 A X Wl Wr b)
    (mulf (broadcastInDim ⟨2, ![N, M]⟩ ![] hs (constant (F := Ideal) ⟨0, ![]⟩ .f32 sb)) (hostPre d hb1 hb2 A X Wl Wr b))

theorem hostPre_apply {N K M : ℕ} (d : DotDims ⟨2, ![N, K]⟩ ⟨2, ![K, M]⟩ ⟨2, ![N, M]⟩) (hd : PlainDot d)
    (hb1 : (⟨1, ![M]⟩ : Shape).BroadcastsInDim ⟨2, ![1, M]⟩ ![1]) (hb2 : (⟨2, ![1, M]⟩ : Shape).BroadcastsInDim ⟨2, ![N, M]⟩ ![0, 1])
    (A X : FVec Ideal ⟨2, ![N, K]⟩ .f32) (Wl Wr : FVec Ideal ⟨2, ![K, M]⟩ .f32) (b : FVec Ideal ⟨1, ![M]⟩ .f32) (p : Fin N) (q : Fin M) :
    hostPre d hb1 hb2 A X Wl Wr b (ix2 p q)
      = (∑ k : Fin K, A (ix2 p k) * Wl (ix2 k q)) + (∑ k : Fin K, X (ix2 p k) * Wr (ix2 k q)) + b (ix1 q) := by
  unfold hostPre
  simp only [Host.dotGeneral]
  rw [addf_apply, addf_apply, dotGeneral_plain_apply d hd, dotGeneral_plain_apply d hd, bid_1b_ab_apply, bid_b_1b_apply]

/-- The host program computes the layer: its product has the slope on the left, the layer's on the right. -/
theorem hostLayer_eq {N K M : ℕ} (d : DotDims ⟨2, ![N, K]⟩ ⟨2, ![K, M]⟩ ⟨2, ![N, M]⟩) (hd : PlainDot d)
    (hb1 : (⟨1, ![M]⟩ : Shape).BroadcastsInDim ⟨2, ![1, M]⟩ ![1]) (hb2 : (⟨2, ![1, M]⟩ : Shape).BroadcastsInDim ⟨2, ![N, M]⟩ ![0, 1])
    (hs : (⟨0, ![]⟩ : Shape).BroadcastsInDim ⟨2, ![N, M]⟩ ![]) (zb sb : BitVec 32)
    (A X : FVec Ideal ⟨2, ![N, K]⟩ .f32) (Wl Wr : FVec Ideal ⟨2, ![K, M]⟩ .f32) (b : FVec Ideal ⟨1, ![M]⟩ .f32) :
    hostLayer d hb1 hb2 hs zb sb A X Wl Wr b = layer (Ideal.ofBits .f32 zb) (Ideal.ofBits .f32 sb) A X Wl Wr b := by
  funext i
  obtain ⟨p, q, rfl⟩ : ∃ (p : Fin N) (q : Fin M), i = ix2 p q := ⟨i 0, i 1, eq_ix2 i⟩
  unfold hostLayer
  rw [select_apply, cmpf_apply, mulf_apply, bid_scalar_apply, bid_scalar_apply, constant_apply, constant_apply,
    hostPre_apply d hd, layer_apply]
  unfold act
  rw [mul_comm (Ideal.ofBits .f32 sb)]

end Cert.LibDenseLayer

end
-- ==== Proof.LibLayerRead.lean ====
/-
  Comparing two dense layers entry by entry.

  Entry `(p, q)` of a layer reads row `p` of its two feature arrays, column `q` of its two weight arrays and the bias at
  `q`. So a layer over a block of rows cut from larger arrays agrees, at a row of the block, with the layer over the larger
  arrays at the row the block's row came from: it is enough that the rows and columns read agree entry by entry.
-/
import proofs.«151401_j36850819400182_1_alg».proof.Proof.LibDenseLayer

noncomputable section

namespace Cert.LibDenseLayer

open Idealize.ShloMosaic Idealize.ShloMosaic.ValueIdx

/-- Two layers agree at a pair of indices when their arrays agree along the rows and columns the two entries read. -/
theorem layer_eq_at {N N' K M : ℕ} (z s : EReal) (A X : (⟨2, ![N, K]⟩ : Shape).Idx → EReal) (Wl Wr : (⟨2, ![K, M]⟩ : Shape).Idx → EReal)
    (b : (⟨1, ![M]⟩ : Shape).Idx → EReal) (A' X' : (⟨2, ![N', K]⟩ : Shape).Idx → EReal) (Wl' Wr' : (⟨2, ![K, M]⟩ : Shape).Idx → EReal)
    (b' : (⟨1, ![M]⟩ : Shape).Idx → EReal) (i : (⟨2, ![N, M]⟩ : Shape).Idx) (i' : (⟨2, ![N', M]⟩ : Shape).Idx)
    (hA : ∀ k : Fin K, A (ix2 (i 0 : Fin N) k) = A' (ix2 (i' 0 : Fin N') k))
    (hX : ∀ k : Fin K, X (ix2 (i 0 : Fin N) k) = X' (ix2 (i' 0 : Fin N') k))
    (hWl : ∀ k : Fin K, Wl (ix2 k (i 1 : Fin M)) = Wl' (ix2 k (i' 1 : Fin M)))
    (hWr : ∀ k : Fin K, Wr (ix2 k (i 1 : Fin M)) = Wr' (ix2 k (i' 1 : Fin M)))
    (hb : b (ix1 (i 1 : Fin M)) = b' (ix1 (i' 1 : Fin M))) :
    layer z s A X Wl Wr b i = layer z s A' X' Wl' Wr' b' i' := by
  unfold layer
  simp only [hA, hX, hWl, hWr, hb]

end Cert.LibDenseLayer

end
-- ==== Proof.KernelLayer1.lean ====
/-
  The first grid: its output array after the run is the first layer of the arrays the grid finds.

  The grid has 20 points; point `t` reads rows 5000·t … 5000·t + 4999 of the aggregated array and of the feature array, the
  two weight arrays and the bias whole, and writes rows 5000·t … 5000·t + 4999 of the output. What the body stores is the
  layer in its vector form of the blocks it loaded (the roundings on the way into the products are the identity on the
  extended reals), so the block a point writes back is that block of ONE function of the whole arrays: the layer. The 20
  row blocks cover the output array, so after the run the array is the layer.
-/
import proofs.«151401_j36850819400182_1_alg».proof.Proof.Gen.KernelIdeal.Frame
import proofs.«151401_j36850819400182_1_alg».proof.Proof.LibLayerRead

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.LibDenseLayer Cert.LibHostRead

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's two products are plain: rows against columns over the one contracted axis of extent 128. -/
theorem plain : PlainDot dot_S5000x128_S128x64_S5000x64_1_0_0_1_n_n :=
  ⟨rfl, rfl, fun _ _ => rfl, fun _ _ => rfl, fun _ _ => rfl, fun _ _ => rfl⟩

/-- What the body stores is the layer of the five blocks it loaded. -/
theorem pay_eq (x0 x1 : Vec Ideal S5000x128 .f32) (w0 w1 : Vec Ideal S128x64 .f32) (b : Vec Ideal S64 .f32) :
    k0_pay1 (F := Ideal) x0 x1 w0 w1 b
      = layer (Ideal.ofBits .f32 0x00000000#32) (Ideal.ofBits .f32 0x3DCCCCCD#32) x0 x1 w0 w1 b := by
  unfold k0_pay1
  rw [shapeCast_self]
  exact vecLayer_eq dot_S5000x128_S128x64_S5000x64_1_0_0_1_n_n plain shapeCasts_S64_S1x64 broadcasts_S1x64_S5000x64
    0x00000000#32 0x3DCCCCCD#32 (truncf .bf16 x0 bitsLt_bf16_f32) (truncf .bf16 x1 bitsLt_bf16_f32)
    (truncf .bf16 w0 bitsLt_bf16_f32) (truncf .bf16 w1 bitsLt_bf16_f32) b

/-- The layer of the arrays as the grid finds them. -/
def G (c : Dev nD) : S100000x64.Idx → EReal :=
  layer (Ideal.ofBits .f32 0x00000000#32) (Ideal.ofBits .f32 0x3DCCCCCD#32) (V c main_v24) (V c main_arg0) (V c main_arg2)
    (V c main_arg3) (V c main_arg4)

/-- The block indices of the six windows at every point: the two row-blocked inputs and the output move with the point, the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x64) zero2, View.ld_unit_zero (S := S64) zero1]
  rw [pay_eq]
  obtain ⟨e00, e01, e10, e11, e20, e21, e30, e31, e40, e50, e51⟩ := idx_facts t
  funext j
  show layer (Ideal.ofBits .f32 0x00000000#32) (Ideal.ofBits .f32 0x3DCCCCCD#32) (iblk0 V c 0 t) (iblk0 V c 1 t) (iblk0 V c 2 t)
      (iblk0 V c 3 t) (iblk0 V c 4 t) j = G V c (((cfg0.win 5).blk t).view.emb j)
  unfold G
  have hp : (j 0).val < 5000 := (j 0).isLt
  have hq : (j 1).val < 64 := (j 1).isLt
  refine layer_eq_at (Ideal.ofBits .f32 0x00000000#32) (Ideal.ofBits .f32 0x3DCCCCCD#32) (iblk0 V c 0 t) (iblk0 V c 1 t)
    (iblk0 V c 2 t) (iblk0 V c 3 t) (iblk0 V c 4 t) (V c main_v24) (V c main_arg0) (V c main_arg2) (V c main_arg3) (V c main_arg4)
    j (((cfg0.win 5).blk t).view.emb j) (fun k => ?_) (fun k => ?_) (fun k => ?_) (fun k => ?_) ?_
  · show V c main_v24 (((cfg0.win 0).blk t).view.emb (ix2 (j 0) k)) = _
    refine congrArg (V c main_v24) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k)) = _
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg2 (((cfg0.win 2).blk t).view.emb (ix2 k (j 1))) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 64 + 1 * (j 1).val = win0_5.index t (1 : Fin 2) * 64 + 1 * (j 1).val; omega
  · show V c main_arg3 (((cfg0.win 3).blk t).view.emb (ix2 k (j 1))) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 64 + 1 * (j 1).val = win0_5.index t (1 : Fin 2) * 64 + 1 * (j 1).val; omega
  · show V c main_arg4 (((cfg0.win 4).blk t).view.emb (ix1 (j 1))) = _
    refine congrArg (V c main_arg4) (funext fun a => Fin.ext ?_)
    match a with
    | ⟨0, _⟩ => show win0_4.index t (0 : Fin 1) * 64 + 1 * (j 1).val = win0_5.index t (1 : Fin 2) * 64 + 1 * (j 1).val; omega

/-- An index of the output array is in point `t`'s block when each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v25).slice (win0_5.rect t)).set ↔ _
  rw [View.set_slice_whole, Rect.mem_set_unit]
  exact Iff.rfl

/-- Row `r` of the output is written by point `r / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨e00, e01, e10, e11, e20, e21, e30, e31, e40, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The output array after the run is the layer of the arrays the grid finds. -/
theorem final (c : Dev nD) : (dat0 V c).arrAt 5 cfg0.N = G V c :=
  (dat0 V c).arrAt_eq_of_cover 5 (G V c) (fun t _ => flushed_eq V c t) (cover)

end Cert.KernelIdeal.Layer1

end
-- ==== Proof.KernelLayer2.lean ====
/-
  The second grid: its output array after the run is the second layer of the arrays the grid finds.

  The same form as the first grid at narrower arrays. Point `t` of 20 reads rows 5000·t … 5000·t + 4999 of the aggregated
  hidden array and of the hidden array (64 columns each), the two [64, 32] weight arrays and the bias whole, and writes rows
  5000·t … 5000·t + 4999 of the [100000, 32] output. The body stores the layer in its vector form of the blocks it loaded,
  so a point writes back its block of the layer of the whole arrays, and the 20 row blocks cover the output array.
-/
import proofs.«151401_j36850819400182_1_alg».proof.Proof.Gen.KernelIdeal.Frame
import proofs.«151401_j36850819400182_1_alg».proof.Proof.LibLayerRead

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.LibDenseLayer Cert.LibHostRead

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's two products are plain: rows against columns over the one contracted axis of extent 64. -/
theorem plain : PlainDot dot_S5000x64_S64x32_S5000x32_1_0_0_1_n_n :=
  ⟨rfl, rfl, fun _ _ => rfl, fun _ _ => rfl, fun _ _ => rfl, fun _ _ => rfl⟩

/-- What the body stores is the layer of the five blocks it loaded. -/
theorem pay_eq (x0 x1 : Vec Ideal S5000x64 .f32) (w0 w1 : Vec Ideal S64x32 .f32) (b : Vec Ideal S32 .f32) :
    k1_pay1 (F := Ideal) x0 x1 w0 w1 b
      = layer (Ideal.ofBits .f32 0x00000000#32) (Ideal.ofBits .f32 0x3DCCCCCD#32) x0 x1 w0 w1 b := by
  unfold k1_pay1
  rw [shapeCast_self, shapeCast_self]
  exact vecLayer_eq dot_S5000x64_S64x32_S5000x32_1_0_0_1_n_n plain shapeCasts_S32_S1x32 broadcasts_S1x32_S5000x32
    0x00000000#32 0x3DCCCCCD#32 (truncf .bf16 x0 bitsLt_bf16_f32) (truncf .bf16 x1 bitsLt_bf16_f32)
    (truncf .bf16 w0 bitsLt_bf16_f32) (truncf .bf16 w1 bitsLt_bf16_f32) b

/-- The layer of the arrays as the grid finds them. -/
def G (c : Dev nD) : S100000x32.Idx → EReal :=
  layer (Ideal.ofBits .f32 0x00000000#32) (Ideal.ofBits .f32 0x3DCCCCCD#32) (V c main_v37) (V c main_v25) (V c main_arg5)
    (V c main_arg6) (V c main_arg7)

/-- The block indices of the six windows at every point: the two row-blocked inputs and the output move with the point, the
    weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zero2]
  simp only [View.ld_unit_zero (S := S5000x64) zero2, View.ld_unit_zero (S := S64x32) zero2, View.ld_unit_zero (S := S32) zero1]
  rw [pay_eq]
  obtain ⟨e00, e01, e10, e11, e20, e21, e30, e31, e40, e50, e51⟩ := idx_facts t
  funext j
  show layer (Ideal.ofBits .f32 0x00000000#32) (Ideal.ofBits .f32 0x3DCCCCCD#32) (iblk1 V c 0 t) (iblk1 V c 1 t) (iblk1 V c 2 t)
      (iblk1 V c 3 t) (iblk1 V c 4 t) j = G V c (((cfg1.win 5).blk t).view.emb j)
  unfold G
  have hp : (j 0).val < 5000 := (j 0).isLt
  have hq : (j 1).val < 32 := (j 1).isLt
  refine layer_eq_at (Ideal.ofBits .f32 0x00000000#32) (Ideal.ofBits .f32 0x3DCCCCCD#32) (iblk1 V c 0 t) (iblk1 V c 1 t)
    (iblk1 V c 2 t) (iblk1 V c 3 t) (iblk1 V c 4 t) (V c main_v37) (V c main_v25) (V c main_arg5) (V c main_arg6) (V c main_arg7)
    j (((cfg1.win 5).blk t).view.emb j) (fun k => ?_) (fun k => ?_) (fun k => ?_) (fun k => ?_) ?_
  · show V c main_v37 (((cfg1.win 0).blk t).view.emb (ix2 (j 0) k)) = _
    refine congrArg (V c main_v37) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_v25 (((cfg1.win 1).blk t).view.emb (ix2 (j 0) k)) = _
    refine congrArg (V c main_v25) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · show V c main_arg5 (((cfg1.win 2).blk t).view.emb (ix2 k (j 1))) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 32 + 1 * (j 1).val = win1_5.index t (1 : Fin 2) * 32 + 1 * (j 1).val; omega
  · show V c main_arg6 (((cfg1.win 3).blk t).view.emb (ix2 k (j 1))) = _
    refine congrArg (V c main_arg6) (funext fun a => Fin.ext ?_)
    match a with
    | ⟨0, _⟩ => show win1_3.index t (0 : Fin 2) * 64 + 1 * k.val = k.val; omega
    | ⟨1, _⟩ => show win1_3.index t (1 : Fin 2) * 32 + 1 * (j 1).val = win1_5.index t (1 : Fin 2) * 32 + 1 * (j 1).val; omega
  · show V c main_arg7 (((cfg1.win 4).blk t).view.emb (ix1 (j 1))) = _
    refine congrArg (V c main_arg7) (funext fun a => Fin.ext ?_)
    match a with
    | ⟨0, _⟩ => show win1_4.index t (0 : Fin 1) * 32 + 1 * (j 1).val = win1_5.index t (1 : Fin 2) * 32 + 1 * (j 1).val; omega

/-- An index of the output array is in point `t`'s block when each coordinate is in the block's range on its axis. -/
theorem mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v38).slice (win1_5.rect t)).set ↔ _
  rw [View.set_slice_whole, Rect.mem_set_unit]
  exact Iff.rfl

/-- Row `r` of the output is written by point `r / 5000`. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  obtain ⟨e00, e01, e10, e11, e20, e21, e30, e31, e40, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 32 ≤ (i 1).val ∧ (i 1).val < win1_5.index t (1 : Fin 2) * 32 + 32
    omega

/-- The output array after the run is the layer of the arrays the grid finds. -/
theorem final (c : Dev nD) : (dat1 V c).arrAt 5 cfg1.N = G V c :=
  (dat1 V c).arrAt_eq_of_cover 5 (G V c) (fun t _ => flushed_eq V c t) (cover)

end Cert.KernelIdeal.Layer2

end
-- ==== Proof.KernelRun.lean ====
/-
  The kernel program's run with its result named.

  The program is four segments in order: a stretch of host operations, the first layer's grid of 20 row blocks, a second
  stretch of host operations, the second layer's grid. The contents of every buffer at each boundary are a fold from the
  launch memory: a host stretch applies its operations, a grid leaves each of its arrays at what its write-backs leave
  and every other buffer alone. Every weakly fair execution terminates without a fault, and in its last state every
  buffer that outlives the grids holds the last boundary's contents. Read at the result buffer this names the result;
  read at an argument, whose contents no segment changes, it gives the argument back.
-/
import proofs.«151401_j36850819400182_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the result
    buffer ends at the last boundary's contents and every argument as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.Graph.lean ====
/-
  The graph side of the two layers, as functions of the arrays they read.

  An edge list `e` of shape [2, E] has the edges' source ends in its row 0 and their destination ends in its row 1. The inverse
  degree of a node is 1 over the number of edges that end at it, or 1 when none does (the count joined with 1 by a
  maximum), kept as a column. The mean aggregation of a feature array `h` gathers, for every edge, the row of `h` at the
  edge's source end (a negative end read from the far side, 100000 added), adds the gathered rows into the rows of a zero array at
  the edges' destination ends, and scales every row by its node's inverse degree. Both programs compute these by the same
  host operations; here they are named once, at feature widths 128 and 64, and never opened.
-/
import proofs.«151401_j36850819400182_1_alg».proof.Proof.Gen.ReferenceIdeal
import Idealize.ShloMosaic.PureOps.Ideal

noncomputable section

namespace Cert.Graph

open Cert.ReferenceIdeal Cert.ReferenceIdeal.Gen Idealize.ShloMosaic

/-- The source ends of the edges: row 0 of the edge list, as a vector. -/
def srcOf (e : (⟨S2x1600000, .i32⟩ : BufTy).Contents (Elt Ideal)) : (⟨S1600000, .i32⟩ : BufTy).Contents (Elt Ideal) :=
  fun i => shapeCast S1600000 (extractStridedSlice S1x1600000 ![0, 0] e slices_S2x1600000_S1x1600000_0_0) shapeCasts_S1x1600000_S1600000 i

/-- The destination ends of the edges: row 1 of the edge list, as a vector. -/
def dstOf (e : (⟨S2x1600000, .i32⟩ : BufTy).Contents (Elt Ideal)) : (⟨S1600000, .i32⟩ : BufTy).Contents (Elt Ideal) :=
  fun i => shapeCast S1600000 (extractStridedSlice S1x1600000 ![1, 0] e slices_S2x1600000_S1x1600000_1_0) shapeCasts_S1x1600000_S1600000 i

/-- The inverse degree column: 1 over the larger of 1 and the number of edges ending at the node. -/
def invDeg (dst : (⟨S1600000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (maximumf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The row of the feature array each edge reads: its source end, a negative one counted from the far side. -/
def rowOf (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The mean aggregation of a [100000, 128] feature array. -/
def agg128 (h : (⟨S100000x128, .f32⟩ : BufTy).Contents (Elt Ideal)) (src dst : (⟨S1600000, .i32⟩ : BufTy).Contents (Elt Ideal))
    (dinv : (⟨S100000x1, .f32⟩ : BufTy).Contents (Elt Ideal)) : (⟨S100000x128, .f32⟩ : BufTy).Contents (Elt Ideal) :=
  mulf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h (rowOf src)))
    (broadcastInDim S100000x128 ![0, 1] bcast_S100000x1_S100000x128_0_1 dinv)

/-- The mean aggregation of a [100000, 64] feature array. -/
def agg64 (h : (⟨S100000x64, .f32⟩ : BufTy).Contents (Elt Ideal)) (src dst : (⟨S1600000, .i32⟩ : BufTy).Contents (Elt Ideal))
    (dinv : (⟨S100000x1, .f32⟩ : BufTy).Contents (Elt Ideal)) : (⟨S100000x64, .f32⟩ : BufTy).Contents (Elt Ideal) :=
  mulf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h (rowOf src)))
    (broadcastInDim S100000x64 ![0, 1] bcast_S100000x1_S100000x64_0_1 dinv)

end Cert.Graph

end
-- ==== Proof.Net.lean ====
/-
  The whole computation as one function of the eight argument arrays.

  Two layers of the same form. The hidden array is the first layer applied to the mean aggregation of the features and to the
  features themselves; the result is the second layer applied to the mean aggregation of the hidden array and to the hidden
  array itself. Both aggregations use the same edges and the same inverse degrees. The activation's threshold is the word of
  0.0 and its slope the word of 0.1, read as the extended reals they denote.
-/
import proofs.«151401_j36850819400182_1_alg».proof.Proof.Graph
import proofs.«151401_j36850819400182_1_alg».proof.Proof.LibDenseLayer

noncomputable section

namespace Cert.Net

open Cert.ReferenceIdeal Idealize.ShloMosaic Cert.Graph Cert.LibDenseLayer

/-- The hidden array: the first layer of the aggregated features and the features. -/
def hidden (x : (⟨S100000x128, .f32⟩ : BufTy).Contents (Elt Ideal)) (e : (⟨S2x1600000, .i32⟩ : BufTy).Contents (Elt Ideal))
    (wl wr : (⟨S128x64, .f32⟩ : BufTy).Contents (Elt Ideal)) (b : (⟨S64, .f32⟩ : BufTy).Contents (Elt Ideal)) :
    (⟨S100000x64, .f32⟩ : BufTy).Contents (Elt Ideal) :=
  layer (Ideal.ofBits .f32 0x00000000#32) (Ideal.ofBits .f32 0x3DCCCCCD#32)
    (agg128 x (srcOf e) (dstOf e) (invDeg (dstOf e))) x wl wr b

/-- The result: the second layer of the aggregated hidden array and the hidden array. -/
def out (x : (⟨S100000x128, .f32⟩ : BufTy).Contents (Elt Ideal)) (e : (⟨S2x1600000, .i32⟩ : BufTy).Contents (Elt Ideal))
    (wl1 wr1 : (⟨S128x64, .f32⟩ : BufTy).Contents (Elt Ideal)) (b1 : (⟨S64, .f32⟩ : BufTy).Contents (Elt Ideal))
    (wl2 wr2 : (⟨S64x32, .f32⟩ : BufTy).Contents (Elt Ideal)) (b2 : (⟨S32, .f32⟩ : BufTy).Contents (Elt Ideal)) :
    (⟨S100000x32, .f32⟩ : BufTy).Contents (Elt Ideal) :=
  layer (Ideal.ofBits .f32 0x00000000#32) (Ideal.ofBits .f32 0x3DCCCCCD#32)
    (agg64 (hidden x e wl1 wr1 b1) (srcOf e) (dstOf e) (invDeg (dstOf e))) (hidden x e wl1 wr1 b1) wl2 wr2 b2

end Cert.Net

end
-- ==== Proof.KernelValue.lean ====
/-
  The kernel program's result as the whole computation of its arguments.

  The first host stretch leaves the ends of the edges, the inverse degree column and the first mean aggregation, by the same
  operations as the reference; the first grid leaves the hidden array (the first layer of what it finds); the second host
  stretch leaves the mean aggregation of the hidden array; the second grid leaves the result (the second layer of what it
  finds). No segment writes an argument, and the second stretch and the second grid leave the hidden array, the ends of the
  edges and the inverse degrees alone. Walking the boundary contents back to the launch memory, the result buffer's last
  contents are the two-layer computation of the eight arguments.
-/
import proofs.«151401_j36850819400182_1_alg».proof.Proof.KernelLayer1
import proofs.«151401_j36850819400182_1_alg».proof.Proof.KernelLayer2
import proofs.«151401_j36850819400182_1_alg».proof.Proof.KernelRun
import proofs.«151401_j36850819400182_1_alg».proof.Proof.Net

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo Cert.Graph Cert.LibDenseLayer
open Idealize.ShloMosaic.Pipeline (Dat Cfg Window)

/-! ## The two host stretches -/

section Stretches

variable (V : Valuation τ sig (Elt Ideal))

set_option maxHeartbeats 4000000 in
theorem graph_agg : after (hostOps0 (F := Ideal)) V (Proc.devRef .tc main_v24)
    = agg128 (V (Proc.devRef .tc main_arg0)) (srcOf (V (Proc.devRef .tc main_arg1))) (dstOf (V (Proc.devRef .tc main_arg1))) (invDeg (dstOf (V (Proc.devRef .tc main_arg1)))) := by
  after_results_simp
  rfl
theorem graph_src : after (hostOps0 (F := Ideal)) V (Proc.devRef .tc main_v1) = srcOf (V (Proc.devRef .tc main_arg1)) := by
  after_results_simp
  rfl
theorem graph_dst : after (hostOps0 (F := Ideal)) V (Proc.devRef .tc main_v3) = dstOf (V (Proc.devRef .tc main_arg1)) := by
  after_results_simp
  rfl
set_option maxHeartbeats 1000000 in
theorem graph_dinv : after (hostOps0 (F := Ideal)) V (Proc.devRef .tc main_v12) = invDeg (dstOf (V (Proc.devRef .tc main_arg1))) := by
  after_results_simp
  rfl
theorem graph_arg0 : after (hostOps0 (F := Ideal)) V (Proc.devRef .tc main_arg0) = V (Proc.devRef .tc main_arg0) := by after_results_simp
theorem graph_arg2 : after (hostOps0 (F := Ideal)) V (Proc.devRef .tc main_arg2) = V (Proc.devRef .tc main_arg2) := by after_results_simp
theorem graph_arg3 : after (hostOps0 (F := Ideal)) V (Proc.devRef .tc main_arg3) = V (Proc.devRef .tc main_arg3) := by after_results_simp
theorem graph_arg4 : after (hostOps0 (F := Ideal)) V (Proc.devRef .tc main_arg4) = V (Proc.devRef .tc main_arg4) := by after_results_simp

set_option maxHeartbeats 1000000 in
theorem agg2_out : after (hostOps1 (F := Ideal)) V (Proc.devRef .tc main_v37)
    = agg64 (V (Proc.devRef .tc main_v25)) (V (Proc.devRef .tc main_v1)) (V (Proc.devRef .tc main_v3)) (V (Proc.devRef .tc main_v12)) := by
  after_results_simp
  rfl
theorem agg2_v25 : after (hostOps1 (F := Ideal)) V (Proc.devRef .tc main_v25) = V (Proc.devRef .tc main_v25) := by after_results_simp

end Stretches

/-! ## The boundary contents, walked back to the arguments -/

variable (m : (ℓ : Loc nD τ sig) → Buf (Elt Ideal) ℓ) (ρ : Dev nD → PrngReg) (c : Dev nD)

/-- The first grid finds the first mean aggregation of the features. -/
theorem V1_agg : V1 m ρ c main_v24 = agg128 (m ((c : Thread nD τ).loc main_arg0)) (srcOf (m ((c : Thread nD τ).loc main_arg1))) (dstOf (m ((c : Thread nD τ).loc main_arg1)))
    (invDeg (dstOf (m ((c : Thread nD τ).loc main_arg1)))) := graph_agg (W0 m ρ c)
theorem V1_src : V1 m ρ c main_v1 = srcOf (m ((c : Thread nD τ).loc main_arg1)) := graph_src (W0 m ρ c)
theorem V1_dst : V1 m ρ c main_v3 = dstOf (m ((c : Thread nD τ).loc main_arg1)) := graph_dst (W0 m ρ c)
theorem V1_dinv : V1 m ρ c main_v12 = invDeg (dstOf (m ((c : Thread nD τ).loc main_arg1))) := graph_dinv (W0 m ρ c)
theorem V1_arg0 : V1 m ρ c main_arg0 = (m ((c : Thread nD τ).loc main_arg0)) := graph_arg0 (W0 m ρ c)
theorem V1_arg2 : V1 m ρ c main_arg2 = (m ((c : Thread nD τ).loc main_arg2)) := graph_arg2 (W0 m ρ c)
theorem V1_arg3 : V1 m ρ c main_arg3 = (m ((c : Thread nD τ).loc main_arg3)) := graph_arg3 (W0 m ρ c)
theorem V1_arg4 : V1 m ρ c main_arg4 = (m ((c : Thread nD τ).loc main_arg4)) := graph_arg4 (W0 m ρ c)

/-- After the first grid its output array holds the hidden array. -/
theorem V2_hidden : V2 m ρ c main_v25 = Cert.Net.hidden (m ((c : Thread nD τ).loc main_arg0)) (m ((c : Thread nD τ).loc main_arg1)) (m ((c : Thread nD τ).loc main_arg2))
    (m ((c : Thread nD τ).loc main_arg3)) (m ((c : Thread nD τ).loc main_arg4)) := by
  refine (W2_arr m ρ c 5).trans ?_
  rw [Layer1.final]
  unfold Layer1.G Cert.Net.hidden
  rw [V1_agg, V1_arg0, V1_arg2, V1_arg3, V1_arg4]

/-- The first grid leaves the ends of the edges and the inverse degrees alone. -/
theorem V2_src : V2 m ρ c main_v1 = srcOf (m ((c : Thread nD τ).loc main_arg1)) := (W2_of_ne m ρ c main_v1 (by decide)).trans (V1_src m ρ c)
theorem V2_dst : V2 m ρ c main_v3 = dstOf (m ((c : Thread nD τ).loc main_arg1)) := (W2_of_ne m ρ c main_v3 (by decide)).trans (V1_dst m ρ c)
theorem V2_dinv : V2 m ρ c main_v12 = invDeg (dstOf (m ((c : Thread nD τ).loc main_arg1))) := (W2_of_ne m ρ c main_v12 (by decide)).trans (V1_dinv m ρ c)

/-- The second grid finds the mean aggregation of the hidden array, and the hidden array. -/
theorem V3_agg : V3 m ρ c main_v37 = agg64 (V2 m ρ c main_v25) (V2 m ρ c main_v1) (V2 m ρ c main_v3) (V2 m ρ c main_v12) :=
  agg2_out (W2 m ρ c)
theorem V3_hidden : V3 m ρ c main_v25 = V2 m ρ c main_v25 := agg2_v25 (W2 m ρ c)

/-- An input array of the second grid ends as the grid found it; an argument ends as launched: so the grid found it as launched. -/
theorem V3_arg5 : V3 m ρ c main_arg5 = (m ((c : Thread nD τ).loc main_arg5)) :=
  ((W4_arr m ρ c 2).trans (((dat1 (V3 m ρ) c).arrAt_in 2 rfl _).trans (A_eq1 (V3 m ρ) c 2))).symm.trans (W4_main_arg5 m ρ c)
theorem V3_arg6 : V3 m ρ c main_arg6 = (m ((c : Thread nD τ).loc main_arg6)) :=
  ((W4_arr m ρ c 3).trans (((dat1 (V3 m ρ) c).arrAt_in 3 rfl _).trans (A_eq1 (V3 m ρ) c 3))).symm.trans (W4_main_arg6 m ρ c)
theorem V3_arg7 : V3 m ρ c main_arg7 = (m ((c : Thread nD τ).loc main_arg7)) :=
  ((W4_arr m ρ c 4).trans (((dat1 (V3 m ρ) c).arrAt_in 4 rfl _).trans (A_eq1 (V3 m ρ) c 4))).symm.trans (W4_main_arg7 m ρ c)

/-- The result buffer's last contents are the two-layer computation of the eight arguments. -/
theorem result : W4 m ρ c (Proc.devRef .tc main_v38) = Cert.Net.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Layer2.final]
  unfold Layer2.G Cert.Net.out
  rw [V3_agg, V3_hidden, V3_arg5, V3_arg6, V3_arg7, V2_hidden, V2_src, V2_dst, V2_dinv]

/-- Every weakly fair execution of the kernel program terminates without a fault, its result the two-layer computation of
    its arguments and the arguments as launched. -/
theorem run : θ_run defs (onTc (τ := τ) (main (F := Ideal))) ⟨m, fun _ => 0, ρ⟩ (fun r => ∀ c : Dev nD,
      r.2.mem ((c.tc : Thread nD τ).loc main_v38) = Cert.Net.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Run.run_result m ρ)

end Cert.KernelIdeal.Value

end
-- ==== Proof.RefOps.lean ====
/-
  The reference program as a list of host operations, in four stretches.

  The reference is a straight line: the graph side shared by both layers (the ends of the edges, the inverse degrees) and the
  first mean aggregation; the first layer's two products, bias and activation; the second mean aggregation, of the first
  layer's result; the second layer's two products, bias and activation. The activation is a module-local function that calls
  another one; its operations are listed at the call site over that call's own buffers, as the compiler inlines them.
-/
import proofs.«151401_j36850819400182_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The graph side and the first mean aggregation: 32 operations ending at the aggregated [100000, 128] array. -/
abbrev opsGraph : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v23 main_v24 (mulf : (⟨S100000x128, .f32⟩ : BufTy).Contents (Elt F) → (⟨S100000x128, .f32⟩ : BufTy).Contents (Elt F) → (⟨S100000x128, .f32⟩ : BufTy).Contents (Elt F)) ]

/-- The first layer: two products, their sum, the bias added, the activation (seven operations of the called functions). -/
abbrev opsLayer1 : List (HloOp τ sig (Elt F)) :=
  [ StableHlo.binary main_v24 main_arg2 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_arg0 main_arg3 main_v26 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v25 main_v26 main_v27 (addf : (⟨S100000x64, .f32⟩ : BufTy).Contents (Elt F) → (⟨S100000x64, .f32⟩ : BufTy).Contents (Elt F) → (⟨S100000x64, .f32⟩ : BufTy).Contents (Elt F)),
    StableHlo.unary main_arg4 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3DCCCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v30) main_call0.v0 main_call0.v1 (cmpf .oge),
    StableHlo.TRef.unary (.of main_cst_5) main_call0.v2 id,
    StableHlo.TRef.unary main_call0.v2 main_call0.v3 (broadcastInDim S100000x64 ![] bcast_S_S100000x64),
    StableHlo.TRef.binary main_call0.v3 (.of main_v30) main_call0.v4 mulf,
    StableHlo.TRef.ternary main_call0.v1 (.of main_v30) main_call0.v4 main_call0.call0.v0 select ]

/-- The second mean aggregation, of the first layer's result: 15 operations ending at the aggregated [100000, 64] array. -/
abbrev opsAgg2 : List (HloOp τ sig (Elt F)) :=
  [ StableHlo.nullary main_c_6 (constantI S_ 32 0#32),
    StableHlo.unary main_c_6 main_v32 (broadcastInDim S1600000 ![] bcast_S_S1600000 : (⟨S_, .i32⟩ : BufTy).Contents (Elt F) → (⟨S1600000, .i32⟩ : BufTy).Contents (Elt F)),
    StableHlo.binary main_v1 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v34 (broadcastInDim S1600000 ![] bcast_S_S1600000 : (⟨S_, .i32⟩ : BufTy).Contents (Elt F) → (⟨S1600000, .i32⟩ : BufTy).Contents (Elt F)),
    StableHlo.binary main_v1 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v31 main_v37 main_v38 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_8 (constant S_ .f32 0x00000000#32),
    StableHlo.unary main_cst_8 main_v39 (broadcastInDim S100000x64 ![] bcast_S_S100000x64 : (⟨S_, .f32⟩ : BufTy).Contents (Elt F) → (⟨S100000x64, .f32⟩ : BufTy).Contents (Elt F)),
    StableHlo.unary main_v3 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v41 main_v42 main_v43 (mulf : (⟨S100000x64, .f32⟩ : BufTy).Contents (Elt F) → (⟨S100000x64, .f32⟩ : BufTy).Contents (Elt F) → (⟨S100000x64, .f32⟩ : BufTy).Contents (Elt F)) ]

/-- The second layer: two products, their sum, the bias added, the activation. -/
abbrev opsLayer2 : List (HloOp τ sig (Elt F)) :=
  [ StableHlo.binary main_v43 main_arg5 main_v44 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v31 main_arg6 main_v45 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v44 main_v45 main_v46 (addf : (⟨S100000x32, .f32⟩ : BufTy).Contents (Elt F) → (⟨S100000x32, .f32⟩ : BufTy).Contents (Elt F) → (⟨S100000x32, .f32⟩ : BufTy).Contents (Elt F)),
    StableHlo.unary main_arg7 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v48 main_v49 (addf : (⟨S100000x32, .f32⟩ : BufTy).Contents (Elt F) → (⟨S100000x32, .f32⟩ : BufTy).Contents (Elt F) → (⟨S100000x32, .f32⟩ : BufTy).Contents (Elt F)),
    StableHlo.nullary main_cst_9 (constant S_ .f32 0x3DCCCCCD#32),
    StableHlo.TRef.nullary main_call1.cst (constant S_ .f32 0x00000000#32),
    StableHlo.TRef.unary main_call1.cst main_call1.v0 (broadcastInDim S100000x32 ![] bcast_S_S100000x32),
    StableHlo.TRef.binary (.of main_v49) main_call1.v0 main_call1.v1 (cmpf .oge),
    StableHlo.TRef.unary (.of main_cst_9) main_call1.v2 id,
    StableHlo.TRef.unary main_call1.v2 main_call1.v3 (broadcastInDim S100000x32 ![] bcast_S_S100000x32),
    StableHlo.TRef.binary main_call1.v3 (.of main_v49) main_call1.v4 mulf,
    StableHlo.TRef.ternary main_call1.v1 (.of main_v49) main_call1.v4 main_call1.call0.v0 select ]

/-- The whole program's 75 operations, in order. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v23 main_v24 (mulf : (⟨S100000x128, .f32⟩ : BufTy).Contents (Elt F) → (⟨S100000x128, .f32⟩ : BufTy).Contents (Elt F) → (⟨S100000x128, .f32⟩ : BufTy).Contents (Elt F)),
    StableHlo.binary main_v24 main_arg2 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_arg0 main_arg3 main_v26 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v25 main_v26 main_v27 (addf : (⟨S100000x64, .f32⟩ : BufTy).Contents (Elt F) → (⟨S100000x64, .f32⟩ : BufTy).Contents (Elt F) → (⟨S100000x64, .f32⟩ : BufTy).Contents (Elt F)),
    StableHlo.unary main_arg4 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3DCCCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v30) main_call0.v0 main_call0.v1 (cmpf .oge),
    StableHlo.TRef.unary (.of main_cst_5) main_call0.v2 id,
    StableHlo.TRef.unary main_call0.v2 main_call0.v3 (broadcastInDim S100000x64 ![] bcast_S_S100000x64),
    StableHlo.TRef.binary main_call0.v3 (.of main_v30) main_call0.v4 mulf,
    StableHlo.TRef.ternary main_call0.v1 (.of main_v30) main_call0.v4 main_call0.call0.v0 select,
    StableHlo.nullary main_c_6 (constantI S_ 32 0#32),
    StableHlo.unary main_c_6 main_v32 (broadcastInDim S1600000 ![] bcast_S_S1600000 : (⟨S_, .i32⟩ : BufTy).Contents (Elt F) → (⟨S1600000, .i32⟩ : BufTy).Contents (Elt F)),
    StableHlo.binary main_v1 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v34 (broadcastInDim S1600000 ![] bcast_S_S1600000 : (⟨S_, .i32⟩ : BufTy).Contents (Elt F) → (⟨S1600000, .i32⟩ : BufTy).Contents (Elt F)),
    StableHlo.binary main_v1 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v31 main_v37 main_v38 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_8 (constant S_ .f32 0x00000000#32),
    StableHlo.unary main_cst_8 main_v39 (broadcastInDim S100000x64 ![] bcast_S_S100000x64 : (⟨S_, .f32⟩ : BufTy).Contents (Elt F) → (⟨S100000x64, .f32⟩ : BufTy).Contents (Elt F)),
    StableHlo.unary main_v3 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v41 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v43 main_arg5 main_v44 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v31 main_arg6 main_v45 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v44 main_v45 main_v46 (addf : (⟨S100000x32, .f32⟩ : BufTy).Contents (Elt F) → (⟨S100000x32, .f32⟩ : BufTy).Contents (Elt F) → (⟨S100000x32, .f32⟩ : BufTy).Contents (Elt F)),
    StableHlo.unary main_arg7 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v48 main_v49 (addf : (⟨S100000x32, .f32⟩ : BufTy).Contents (Elt F) → (⟨S100000x32, .f32⟩ : BufTy).Contents (Elt F) → (⟨S100000x32, .f32⟩ : BufTy).Contents (Elt F)),
    StableHlo.nullary main_cst_9 (constant S_ .f32 0x3DCCCCCD#32),
    StableHlo.TRef.nullary main_call1.cst (constant S_ .f32 0x00000000#32),
    StableHlo.TRef.unary main_call1.cst main_call1.v0 (broadcastInDim S100000x32 ![] bcast_S_S100000x32),
    StableHlo.TRef.binary (.of main_v49) main_call1.v0 main_call1.v1 (cmpf .oge),
    StableHlo.TRef.unary (.of main_cst_9) main_call1.v2 id,
    StableHlo.TRef.unary main_call1.v2 main_call1.v3 (broadcastInDim S100000x32 ![] bcast_S_S100000x32),
    StableHlo.TRef.binary main_call1.v3 (.of main_v49) main_call1.v4 mulf,
    StableHlo.TRef.ternary main_call1.v1 (.of main_v49) main_call1.v4 main_call1.call0.v0 select ]

/-- The program is its four stretches one after the other. -/
theorem ops_eq : (ops : List (HloOp τ sig (Elt F))) = opsGraph ++ (opsLayer1 ++ (opsAgg2 ++ opsLayer2)) := rfl

/-- The contents after two stretches in a row are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.Ops

end
-- ==== Proof.RefRun.lean ====
/-
  The reference program's run.

  The reference launches no grid: it is its 75 host operations in order, so every weakly fair execution terminates without a
  fault, and every buffer ends at the fold of the operations over the launch memory.
-/
import proofs.«151401_j36850819400182_1_alg».proof.Proof.RefOps

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

set_option maxRecDepth 65536 in
set_option maxHeartbeats 16000000 in
/-- The program is that straight line: its two windows in order, the called functions' bodies at their calls; the
    sequencing of the two sides computes to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- From any memory with zero counters every weakly fair execution of the reference terminates, and every buffer ends at
    the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefStages.lean ====
/-
  What each stretch of the reference leaves behind, as a function of the contents it starts from.

  The graph stretch leaves the two ends of the edges, the inverse degree column and the first mean aggregation; a layer's
  stretch leaves the layer in its host form of the arrays it reads; the second aggregation's stretch leaves the mean
  aggregation of the hidden array. A stretch leaves alone every buffer a later stretch still reads. Composed, the result
  buffer ends at the whole computation of the arguments.
-/
import proofs.«151401_j36850819400182_1_alg».proof.Proof.RefOps
import proofs.«151401_j36850819400182_1_alg».proof.Proof.Net

noncomputable section

namespace Cert.ReferenceIdeal.Stages

open Cert.ReferenceIdeal Cert.ReferenceIdeal.Gen Cert.ReferenceIdeal.Ops Idealize.ShloMosaic Idealize.ShloMosaic.TcCoe Idealize.SL.Sem
open Idealize.ShloMosaic.StableHlo Cert.Graph Cert.LibDenseLayer Cert.LibHostRead

variable (V : Valuation τ sig (Elt Ideal))

/-! ## The graph stretch -/

set_option maxHeartbeats 4000000 in
theorem graph_agg : after (opsGraph (F := Ideal)) V (Proc.devRef .tc main_v24)
    = agg128 (V (Proc.devRef .tc main_arg0)) (srcOf (V (Proc.devRef .tc main_arg1))) (dstOf (V (Proc.devRef .tc main_arg1))) (invDeg (dstOf (V (Proc.devRef .tc main_arg1)))) := by
  after_results_simp
  rfl
theorem graph_src : after (opsGraph (F := Ideal)) V (Proc.devRef .tc main_v1) = srcOf (V (Proc.devRef .tc main_arg1)) := by
  after_results_simp
  rfl
theorem graph_dst : after (opsGraph (F := Ideal)) V (Proc.devRef .tc main_v3) = dstOf (V (Proc.devRef .tc main_arg1)) := by
  after_results_simp
  rfl
set_option maxHeartbeats 1000000 in
theorem graph_dinv : after (opsGraph (F := Ideal)) V (Proc.devRef .tc main_v12) = invDeg (dstOf (V (Proc.devRef .tc main_arg1))) := by
  after_results_simp
  rfl
theorem graph_arg0 : after (opsGraph (F := Ideal)) V (Proc.devRef .tc main_arg0) = V (Proc.devRef .tc main_arg0) := by after_results_simp
theorem graph_arg2 : after (opsGraph (F := Ideal)) V (Proc.devRef .tc main_arg2) = V (Proc.devRef .tc main_arg2) := by after_results_simp
theorem graph_arg3 : after (opsGraph (F := Ideal)) V (Proc.devRef .tc main_arg3) = V (Proc.devRef .tc main_arg3) := by after_results_simp
theorem graph_arg4 : after (opsGraph (F := Ideal)) V (Proc.devRef .tc main_arg4) = V (Proc.devRef .tc main_arg4) := by after_results_simp
theorem graph_arg5 : after (opsGraph (F := Ideal)) V (Proc.devRef .tc main_arg5) = V (Proc.devRef .tc main_arg5) := by after_results_simp
theorem graph_arg6 : after (opsGraph (F := Ideal)) V (Proc.devRef .tc main_arg6) = V (Proc.devRef .tc main_arg6) := by after_results_simp
theorem graph_arg7 : after (opsGraph (F := Ideal)) V (Proc.devRef .tc main_arg7) = V (Proc.devRef .tc main_arg7) := by after_results_simp

/-! ## The first layer's stretch -/

/-- The first layer's products are plain: rows against columns over the one contracted axis of extent 128. -/
theorem plain1 : PlainDot dot_S100000x128_S128x64_S100000x64_1_0_0_1_n_n :=
  ⟨rfl, rfl, fun _ _ => rfl, fun _ _ => rfl, fun _ _ => rfl, fun _ _ => rfl⟩

theorem layer1_out : after (opsLayer1 (F := Ideal)) V (Proc.devRef .tc main_v31)
    = hostLayer dot_S100000x128_S128x64_S100000x64_1_0_0_1_n_n bcast_S64_S1x64_1 bcast_S1x64_S100000x64_0_1 bcast_S_S100000x64
        0x00000000#32 0x3DCCCCCD#32 (V (Proc.devRef .tc main_v24)) (V (Proc.devRef .tc main_arg0)) (V (Proc.devRef .tc main_arg2)) (V (Proc.devRef .tc main_arg3)) (V (Proc.devRef .tc main_arg4)) := by
  after_results_simp
  rfl
theorem layer1_v1 : after (opsLayer1 (F := Ideal)) V (Proc.devRef .tc main_v1) = V (Proc.devRef .tc main_v1) := by after_results_simp
theorem layer1_v3 : after (opsLayer1 (F := Ideal)) V (Proc.devRef .tc main_v3) = V (Proc.devRef .tc main_v3) := by after_results_simp
theorem layer1_v12 : after (opsLayer1 (F := Ideal)) V (Proc.devRef .tc main_v12) = V (Proc.devRef .tc main_v12) := by after_results_simp
theorem layer1_arg5 : after (opsLayer1 (F := Ideal)) V (Proc.devRef .tc main_arg5) = V (Proc.devRef .tc main_arg5) := by after_results_simp
theorem layer1_arg6 : after (opsLayer1 (F := Ideal)) V (Proc.devRef .tc main_arg6) = V (Proc.devRef .tc main_arg6) := by after_results_simp
theorem layer1_arg7 : after (opsLayer1 (F := Ideal)) V (Proc.devRef .tc main_arg7) = V (Proc.devRef .tc main_arg7) := by after_results_simp

/-! ## The second aggregation's stretch -/

theorem agg2_out : after (opsAgg2 (F := Ideal)) V (Proc.devRef .tc main_v43)
    = agg64 (V (Proc.devRef .tc main_v31)) (V (Proc.devRef .tc main_v1)) (V (Proc.devRef .tc main_v3)) (V (Proc.devRef .tc main_v12)) := by
  after_results_simp
  rfl
theorem agg2_v31 : after (opsAgg2 (F := Ideal)) V (Proc.devRef .tc main_v31) = V (Proc.devRef .tc main_v31) := by after_results_simp
theorem agg2_arg5 : after (opsAgg2 (F := Ideal)) V (Proc.devRef .tc main_arg5) = V (Proc.devRef .tc main_arg5) := by after_results_simp
theorem agg2_arg6 : after (opsAgg2 (F := Ideal)) V (Proc.devRef .tc main_arg6) = V (Proc.devRef .tc main_arg6) := by after_results_simp
theorem agg2_arg7 : after (opsAgg2 (F := Ideal)) V (Proc.devRef .tc main_arg7) = V (Proc.devRef .tc main_arg7) := by after_results_simp

/-! ## The second layer's stretch -/

/-- The second layer's products are plain: rows against columns over the one contracted axis of extent 64. -/
theorem plain2 : PlainDot dot_S100000x64_S64x32_S100000x32_1_0_0_1_n_n :=
  ⟨rfl, rfl, fun _ _ => rfl, fun _ _ => rfl, fun _ _ => rfl, fun _ _ => rfl⟩

theorem layer2_out : after (opsLayer2 (F := Ideal)) V (Proc.devRef .tc main_v50)
    = hostLayer dot_S100000x64_S64x32_S100000x32_1_0_0_1_n_n bcast_S32_S1x32_1 bcast_S1x32_S100000x32_0_1 bcast_S_S100000x32
        0x00000000#32 0x3DCCCCCD#32 (V (Proc.devRef .tc main_v43)) (V (Proc.devRef .tc main_v31)) (V (Proc.devRef .tc main_arg5)) (V (Proc.devRef .tc main_arg6)) (V (Proc.devRef .tc main_arg7)) := by
  after_results_simp
  rfl

/-! ## The four stretches in a row -/

/-- The result buffer ends at the whole computation of the eight arguments. -/
theorem result : after (ops (F := Ideal)) V (Proc.devRef .tc main_v50)
    = Cert.Net.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq, after_append, after_append, after_append, layer2_out, agg2_out, agg2_v31, agg2_arg5, agg2_arg6, agg2_arg7,
    layer1_out, layer1_v1, layer1_v3, layer1_v12, layer1_arg5, layer1_arg6, layer1_arg7,
    graph_agg, graph_src, graph_dst, graph_dinv, graph_arg0, graph_arg2, graph_arg3, graph_arg4, graph_arg5, graph_arg6, graph_arg7,
    hostLayer_eq _ plain2, hostLayer_eq _ plain1]
  rfl

set_option maxHeartbeats 16000000 in
/-- No operation writes an argument. -/
theorem kept (b : Ref sig .tc) (hb : b = main_arg0 ∨ b = main_arg1 ∨ b = main_arg2 ∨ b = main_arg3 ∨ b = main_arg4 ∨ b = main_arg5
    ∨ b = main_arg6 ∨ b = main_arg7) : after (ops (F := Ideal)) V (Proc.devRef .tc b) = V (Proc.devRef .tc b) := by
  rcases hb with h | h | h | h | h | h | h | h <;> subst h <;> after_results_simp

end Cert.ReferenceIdeal.Stages

end
-- ==== Proof.lean ====
/- The proof of `Cert.Claim` (proofs.«151401_j36850819400182_1_alg».proof.Defs).

   Both programs compute a two-layer graph network over 100000 nodes and 1600000 edges. A layer takes a feature array, averages
   over every node's incoming edges the features at the edges' source ends, and returns `act (mean · Wl + features · Wr + b)`
   with `act v = v` where `v ≥ 0` and `0.1 · v` elsewhere. The kernel program computes the averages by host operations and each
   layer's products, bias and activation in a grid of 20 blocks of 5000 rows, its operands rounded to a narrower format on the way
   into the products; the reference computes everything by host operations. On the extended reals a change of format is the
   identity and a product into a zero accumulator is the plain sum of products, so a grid's output array is the layer of the
   arrays it finds (Proof/KernelLayer1.lean, KernelLayer2.lean over Proof/LibDenseLayer.lean), the averages are the same host
   operations on both sides (Proof/Graph.lean), and both results are ONE function of the eight arguments (Proof/Net.lean): the
   kernel's by walking its boundary contents back to the launch memory (Proof/KernelRun.lean, KernelValue.lean), the reference's
   by folding its 75 operations (Proof/RefOps.lean, RefRun.lean, RefStages.lean). The only law used between the two sides is the
   commutativity of the product of extended reals (the slope multiplies on the right in the kernel and on the left in the
   reference), which holds at the infinities too: the precondition is not opened.
   The two kernel frames are the generated ones; the reference's frame is its run with the result dropped; the idealization
   rewrote nothing, so `preserves` is `True`. -/
import proofs.«151401_j36850819400182_1_alg».proof.Defs
import proofs.«151401_j36850819400182_1_alg».proof.Proof.Gen.Kernel
import proofs.«151401_j36850819400182_1_alg».proof.Proof.Gen.Kernel.Frame
import proofs.«151401_j36850819400182_1_alg».proof.Proof.Gen.KernelIdeal
import proofs.«151401_j36850819400182_1_alg».proof.Proof.Gen.KernelIdeal.Frame
import proofs.«151401_j36850819400182_1_alg».proof.Proof.Gen.ReferenceIdeal
import proofs.«151401_j36850819400182_1_alg».proof.Proof.Gen.Pre_finite_inputs
import proofs.«151401_j36850819400182_1_alg».proof.Proof.KernelValue
import proofs.«151401_j36850819400182_1_alg».proof.Proof.RefRun
import proofs.«151401_j36850819400182_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with every buffer at the fold of its operations, and no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Stages.kept _ Cert.ReferenceIdeal.main_arg0 (.inl rfl)),
      (h c Cert.ReferenceIdeal.main_arg1).trans (Cert.ReferenceIdeal.Stages.kept _ Cert.ReferenceIdeal.main_arg1 (.inr (.inl rfl))),
      (h c Cert.ReferenceIdeal.main_arg2).trans (Cert.ReferenceIdeal.Stages.kept _ Cert.ReferenceIdeal.main_arg2 (.inr (.inr (.inl rfl)))),
      (h c Cert.ReferenceIdeal.main_arg3).trans (Cert.ReferenceIdeal.Stages.kept _ Cert.ReferenceIdeal.main_arg3 (.inr (.inr (.inr (.inl rfl))))),
      (h c Cert.ReferenceIdeal.main_arg4).trans (Cert.ReferenceIdeal.Stages.kept _ Cert.ReferenceIdeal.main_arg4 (.inr (.inr (.inr (.inr (.inl rfl)))))),
      (h c Cert.ReferenceIdeal.main_arg5).trans (Cert.ReferenceIdeal.Stages.kept _ Cert.ReferenceIdeal.main_arg5 (.inr (.inr (.inr (.inr (.inr (.inl rfl))))))),
      (h c Cert.ReferenceIdeal.main_arg6).trans (Cert.ReferenceIdeal.Stages.kept _ Cert.ReferenceIdeal.main_arg6 (.inr (.inr (.inr (.inr (.inr (.inr (.inl rfl)))))))),
      (h c Cert.ReferenceIdeal.main_arg7).trans (Cert.ReferenceIdeal.Stages.kept _ Cert.ReferenceIdeal.main_arg7 (.inr (.inr (.inr (.inr (.inr (.inr (.inr (rfl)))))))))⟩)
    (Cert.ReferenceIdeal.Run.run (F := Ideal) m ρ)

/-- The ideal pass rewrote no operation. -/
theorem preserves : Cert.preserves_Kernel_KernelIdeal := trivial

/-- From memories that agree on the arguments both programs end with the two-layer computation of the arguments in their
    result buffers, and with the arguments as launched. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Value.run m ρ, ?_⟩
  have key : ∀ c : Dev Cert.ReferenceIdeal.nD, Cert.Net.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := fun c => by
    obtain ⟨h0, h1, h2, h3, h4, h5, h6, h7⟩ := hagree c
    rw [h0, h1, h2, h3, h4, h5, h6, h7]
  refine (θ_run Cert.ReferenceIdeal.defs _ _).mono (fun r h c =>
    ⟨(h c Cert.ReferenceIdeal.main_v50).trans ((Cert.ReferenceIdeal.Stages.result _).trans (key c)),
      (h c Cert.ReferenceIdeal.main_arg0).trans (Cert.ReferenceIdeal.Stages.kept _ Cert.ReferenceIdeal.main_arg0 (.inl rfl)),
      (h c Cert.ReferenceIdeal.main_arg1).trans (Cert.ReferenceIdeal.Stages.kept _ Cert.ReferenceIdeal.main_arg1 (.inr (.inl rfl))),
      (h c Cert.ReferenceIdeal.main_arg2).trans (Cert.ReferenceIdeal.Stages.kept _ Cert.ReferenceIdeal.main_arg2 (.inr (.inr (.inl rfl)))),
      (h c Cert.ReferenceIdeal.main_arg3).trans (Cert.ReferenceIdeal.Stages.kept _ Cert.ReferenceIdeal.main_arg3 (.inr (.inr (.inr (.inl rfl))))),
      (h c Cert.ReferenceIdeal.main_arg4).trans (Cert.ReferenceIdeal.Stages.kept _ Cert.ReferenceIdeal.main_arg4 (.inr (.inr (.inr (.inr (.inl rfl)))))),
      (h c Cert.ReferenceIdeal.main_arg5).trans (Cert.ReferenceIdeal.Stages.kept _ Cert.ReferenceIdeal.main_arg5 (.inr (.inr (.inr (.inr (.inr (.inl rfl))))))),
      (h c Cert.ReferenceIdeal.main_arg6).trans (Cert.ReferenceIdeal.Stages.kept _ Cert.ReferenceIdeal.main_arg6 (.inr (.inr (.inr (.inr (.inr (.inr (.inl rfl)))))))),
      (h c Cert.ReferenceIdeal.main_arg7).trans (Cert.ReferenceIdeal.Stages.kept _ Cert.ReferenceIdeal.main_arg7 (.inr (.inr (.inr (.inr (.inr (.inr (.inr (rfl)))))))))⟩)
    (Cert.ReferenceIdeal.Run.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
